-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn {F : FTy → Type} [FloatOps F] (main_arg0 : FVec F S1x16777216 .f32) (main_arg1 : FVec F S1x16777216 .f32) (main_arg2 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  main_v13
-- ==== Kernel.lean ====
abbrev S1x16777216 : Shape := ⟨2, ![1, 16777216]⟩
abbrev S16384x1024 : Shape := ⟨2, ![16384, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1x16777216, .f32⟩
  | .hbm, ⟨10, _⟩ => ⟨S1x16777216, .f32⟩
  | .hbm, ⟨11, _⟩ => ⟨S1x16777216, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x16777216_S16384x1024 : S1x16777216.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S16384x1024_S1x16777216 : S16384x1024.ShapeCasts S1x16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16777216 : Shape := ⟨2, ![1, 16777216]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S_, .f32⟩
  | .hbm, ⟨4, _⟩ => ⟨S1x16777216, .f32⟩
  | .hbm, ⟨5, _⟩ => ⟨S1x16777216, .i1⟩
  | .hbm, ⟨6, _⟩ => ⟨S1x16777216, .f32⟩
  | .hbm, ⟨7, _⟩ => ⟨S_, .f32⟩
  | .hbm, ⟨8, _⟩ => ⟨S1x16777216, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S1x16777216, .f32⟩
  | .hbm, ⟨13, _⟩ => ⟨S_, .f32⟩
  | .hbm, ⟨14, _⟩ => ⟨S1x16777216, .f32⟩
  | .hbm, ⟨15, _⟩ => ⟨S1x16777216, .f32⟩
  | .hbm, ⟨16, _⟩ => ⟨S_, .f32⟩
  | .hbm, ⟨17, _⟩ => ⟨S1x16777216, .f32⟩
  | .hbm, ⟨18, _⟩ => ⟨S1x16777216, .f32⟩
  | .hbm, ⟨19, _⟩ => ⟨S_, .f32⟩
  | .hbm, ⟨20, _⟩ => ⟨S1x16777216, .f32⟩
  | .hbm, ⟨21, _⟩ => ⟨S1x16777216, .f32⟩
  | .hbm, ⟨22, _⟩ => ⟨S1x16777216, .f32⟩
  | .hbm, ⟨23, _⟩ => ⟨S_, .f32⟩
  | .hbm, ⟨24, _⟩ => ⟨S1x16777216, .f32⟩
  | .hbm, ⟨25, _⟩ => ⟨S1x16777216, .i1⟩
  | .hbm, ⟨26, _⟩ => ⟨S1x16777216, .f32⟩
  | .hbm, ⟨27, _⟩ => ⟨S_, .f32⟩
  | .hbm, ⟨28, _⟩ => ⟨S1x16777216, .f32⟩
  | .hbm, ⟨29, _⟩ => ⟨S1x16777216, .f32⟩
  | .hbm, ⟨30, _⟩ => ⟨S1x16777216, .f32⟩
  | .hbm, ⟨31, _⟩ => ⟨S1x16777216, .f32⟩
  | .hbm, ⟨32, _⟩ => ⟨S1x16777216, .f32⟩
  | .hbm, ⟨33, _⟩ => ⟨S_, .f32⟩
  | .hbm, ⟨34, _⟩ => ⟨S1x16777216, .f32⟩
  | .hbm, ⟨35, _⟩ => ⟨S1x16777216, .f32⟩
  | .hbm, ⟨36, _⟩ => ⟨S_, .f32⟩
  | .hbm, ⟨37, _⟩ => ⟨S1x16777216, .f32⟩
  | .hbm, ⟨38, _⟩ => ⟨S1x16777216, .f32⟩
  | .hbm, ⟨39, _⟩ => ⟨S_, .f32⟩
  | .hbm, ⟨40, _⟩ => ⟨S1x16777216, .f32⟩
  | .hbm, ⟨41, _⟩ => ⟨S1x16777216, .f32⟩
  | .hbm, ⟨42, _⟩ => ⟨S1x16777216, .f32⟩
  | .hbm, ⟨43, _⟩ => ⟨S_, .f32⟩
  | .hbm, ⟨44, _⟩ => ⟨S1x16777216, .f32⟩
  | .hbm, ⟨45, _⟩ => ⟨S1x16777216, .i1⟩
  | .hbm, ⟨46, _⟩ => ⟨S1x16777216, .f32⟩
  | .hbm, ⟨47, _⟩ => ⟨S_, .f32⟩
  | .hbm, ⟨48, _⟩ => ⟨S1x16777216, .f32⟩
  | .hbm, ⟨49, _⟩ => ⟨S1x16777216, .f32⟩
  | .hbm, ⟨50, _⟩ => ⟨S1x16777216, .f32⟩
  | .hbm, ⟨51, _⟩ => ⟨S1x16777216, .f32⟩
  | .hbm, ⟨52, _⟩ => ⟨S1x16777216, .f32⟩
  | .hbm, ⟨53, _⟩ => ⟨S_, .f32⟩
  | .hbm, ⟨54, _⟩ => ⟨S1x16777216, .f32⟩
  | .hbm, ⟨55, _⟩ => ⟨S1x16777216, .f32⟩
  | .hbm, ⟨56, _⟩ => ⟨S_, .f32⟩
  | .hbm, ⟨57, _⟩ => ⟨S1x16777216, .f32⟩
  | .hbm, ⟨58, _⟩ => ⟨S1x16777216, .f32⟩
  | .hbm, ⟨59, _⟩ => ⟨S_, .f32⟩
  | .hbm, ⟨60, _⟩ => ⟨S1x16777216, .f32⟩
  | .hbm, ⟨61, _⟩ => ⟨S1x16777216, .f32⟩
  | .hbm, ⟨62, _⟩ => ⟨S1x16777216, .f32⟩
  | .hbm, ⟨63, _⟩ => ⟨S_, .f32⟩
  | .hbm, ⟨64, _⟩ => ⟨S1x16777216, .f32⟩
  | .hbm, ⟨65, _⟩ => ⟨S1x16777216, .i1⟩
  | .hbm, ⟨66, _⟩ => ⟨S1x16777216, .f32⟩
  | .hbm, ⟨67, _⟩ => ⟨S_, .f32⟩
  | .hbm, ⟨68, _⟩ => ⟨S1x16777216, .f32⟩
  | .hbm, ⟨69, _⟩ => ⟨S1x16777216, .i1⟩
  | .hbm, ⟨70, _⟩ => ⟨S_, .f32⟩
  | .hbm, ⟨71, _⟩ => ⟨S1x16777216, .f32⟩
  | .hbm, ⟨72, _⟩ => ⟨S1x16777216, .i1⟩
  | .hbm, ⟨73, _⟩ => ⟨S_, .f32⟩
  | .hbm, ⟨74, _⟩ => ⟨S1x16777216, .f32⟩
  | .hbm, ⟨75, _⟩ => ⟨S1x16777216, .f32⟩
  | .hbm, ⟨76, _⟩ => ⟨S1x16777216, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_cst_16 : Ref sig .tc := ⟨.hbm, 70, rfl⟩
abbrev main_v50 : Ref sig .tc := ⟨.hbm, 71, rfl⟩
abbrev main_v51 : Ref sig .tc := ⟨.hbm, 72, rfl⟩
abbrev main_cst_17 : Ref sig .tc := ⟨.hbm, 73, rfl⟩
abbrev main_call4_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S1x16777216 : S_.BroadcastsInDim S1x16777216 (![] : Fin 0 → Fin S1x16777216.rank)

variable [Facts₀]

class Facts : Prop extends Facts₀ where

variable [Facts]
-- ==== Proof.SpuSpec.lean ====
/-
  The scalar function this kernel applies at every element, and the three outputs as functions of the inputs,
  one element at a time.

  SPU(v) = v² − 1/2 for v ≥ 0, and σ(−v) − 1 for v < 0, where σ(y) = 1 / (1 + e^(−y)) is the logistic function.
  The kernel spells σ as one logistic operation applied to 0 − v; the reference spells it as the quotient
  1 / (1 + exp(−(−v))). On the extended reals the logistic operation IS that quotient and 0 − v = −v, so
  the two spellings are one function of v, infinities included: no finiteness is needed.

  From elementwise lower and upper bounds l, u the three outputs are
    x_out = SPU(x),
    u_out = SPU(l) if u ≤ 0, else SPU(u),
    l_out = SPU(l) if l ≥ 0, else (SPU(u) if u ≤ 0, else −1/2).
-/
import Idealize.ShloMosaic.PureOps.Ideal
import Idealize.ShloMosaic.PureOps.Ideal.Laws
import Idealize.ShloMosaic.PureOps.ShapeOps
import Idealize.ShloMosaic.Lib.IdealHost
import Idealize.ShloMosaic.Lib.KernelVsHost

noncomputable section

namespace Cert.Spu

open Idealize.ShloMosaic

variable {F : FTy → Type} [FloatOps F]

/-- SPU at one element, in the kernel's spelling: the logistic operation applied to `0 − v`. -/
def spu (v : F .f32) : F .f32 :=
  Scalar.select (FloatOps.cmpf .oge v (FloatOps.ofBits .f32 0x00000000#32))
    (FloatOps.subf (FloatOps.mulf v v) (FloatOps.ofBits .f32 0x3F000000#32))
    (FloatOps.subf (FloatOps.logistic (FloatOps.subf (FloatOps.ofBits .f32 0x00000000#32) v))
      (FloatOps.ofBits .f32 0x3F800000#32))

/-- SPU at one element, in the reference's spelling: `1 / (1 + exp (−(−v)))` with the host's operations. -/
def spuHost (v : F .f32) : F .f32 :=
  Scalar.select (FloatOps.cmpf .oge v (FloatOps.ofBits .f32 0x00000000#32))
    (FloatOps.subf (FloatOps.mulf v v) (FloatOps.ofBits .f32 0x3F000000#32))
    (FloatOps.subf
      (FloatOps.hostDivf (FloatOps.ofBits .f32 0x3F800000#32)
        (FloatOps.addf (FloatOps.ofBits .f32 0x3F800000#32)
          (FloatOps.hostUnary .exp (FloatOps.hostNegf (FloatOps.hostNegf v)))))
      (FloatOps.ofBits .f32 0x3F800000#32))

/-- On the extended reals the two spellings agree at every `v`, `±∞` included: the logistic operation is
    `1 / (1 + e^(−y))` by definition, and `0 − v = −v`. -/
theorem spuHost_eq_spu (v : Ideal .f32) : spuHost v = spu v := by
  unfold spuHost spu
  congr 2
  rw [Ideal.subf_zero_eq_hostNegf]
  simp only [Ideal.logistic_def, Ideal.logistic, Ideal.hostDivf_def, Ideal.addf_def, Ideal.hostUnary_exp_def,
    Ideal.hostNegf_def, Ideal.negf_def, Ideal.ofBits_def, Ideal.ofBits_one_f32]

/-- The upper bound's output at one element, from the bounds `l`, `u` there. -/
def upper (sp : F .f32 → F .f32) (l u : F .f32) : F .f32 :=
  Scalar.select (FloatOps.cmpf .ole u (FloatOps.ofBits .f32 0x00000000#32)) (sp l) (sp u)

/-- The lower bound's output at one element, from the bounds `l`, `u` there. -/
def lower (sp : F .f32 → F .f32) (l u : F .f32) : F .f32 :=
  Scalar.select (FloatOps.cmpf .oge l (FloatOps.ofBits .f32 0x00000000#32)) (sp l)
    (Scalar.select (FloatOps.cmpf .ole u (FloatOps.ofBits .f32 0x00000000#32)) (sp u)
      (FloatOps.ofBits .f32 0xBF000000#32))

variable {s t : Shape}

/-- `x_out` as one function of the whole input array. -/
def xOut (x : s.Idx → F .f32) : s.Idx → F .f32 := fun i => spu (x i)
/-- `u_out` as one function of the whole bound arrays. -/
def uOut (l u : s.Idx → F .f32) : s.Idx → F .f32 := fun i => upper spu (l i) (u i)
/-- `l_out` as one function of the whole bound arrays. -/
def lOut (l u : s.Idx → F .f32) : s.Idx → F .f32 := fun i => lower spu (l i) (u i)

/-- An elementwise function commutes with a change of layout: re-laying the result is the function of the re-laid
    inputs. -/
theorem shapeCast_xOut (x : s.Idx → F .f32) (h : s.ShapeCasts t) :
    shapeCast t (xOut x) h = xOut (shapeCast t x h) := rfl
theorem shapeCast_uOut (l u : s.Idx → F .f32) (h : s.ShapeCasts t) :
    shapeCast t (uOut l u) h = uOut (shapeCast t l h) (shapeCast t u h) := rfl
theorem shapeCast_lOut (l u : s.Idx → F .f32) (h : s.ShapeCasts t) :
    shapeCast t (lOut l u) h = lOut (shapeCast t l h) (shapeCast t u h) := rfl

end Cert.Spu

end
-- ==== Proof.KernelBlocks.lean ====
/-
  The kernel's region, block by block, and then as whole arrays.

  The three inputs and the three outputs are [16384, 1024] arrays cut into 32 blocks of 512 rows; grid point `t`
  reads block `t` of every input and writes block `t` of every output. The body is elementwise, so what it stores
  in an output block is the output's elementwise function of the input blocks, and block `t` of an elementwise
  function of whole arrays is that function of the arrays' blocks `t`. The 32 blocks tile the rows, so after the
  last point each output array is the elementwise function of the whole input arrays.
-/
import proofs.«152548_j23785528885334_2_alg».proof.Proof.Gen.KernelIdeal.Frame
import proofs.«152548_j23785528885334_2_alg».proof.Proof.SpuSpec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the body stores, from the blocks it loads -/

theorem origin : (![0, 0] : Fin 2 → Nat) = fun _ => 0 := funext fun a => by fin_cases a <;> rfl

/-- The body's casts of a loaded block to its own shape change nothing. -/
theorem pay4_eq (v : Vec F S512x1024 .f32) : k0_pay4 v = v := shapeCast_self _ _
theorem pay5_eq (v : Vec F S512x1024 .f32) : k0_pay5 v = v := shapeCast_self _ _

/-- The first output block is SPU of the first input block, element by element. -/
theorem stored_x (x0 x1 x2 : Vec F S512x1024 .f32) : out0_3 x0 x1 x2 = Spu.xOut x0 := by
  unfold out0_3
  rw [View.canon_unit_zero origin]
  simp only [View.ld_unit_zero (S := S512x1024) origin]
  unfold k0_pay6
  rw [shapeCast_self]
  rfl

/-- The second output block is the lower bound's function of the second and third input blocks. -/
theorem stored_l (x0 x1 x2 : Vec F S512x1024 .f32) : out0_4 x0 x1 x2 = Spu.lOut x1 x2 := by
  unfold out0_4
  rw [View.canon_unit_zero origin]
  simp only [View.ld_unit_zero (S := S512x1024) origin]
  unfold k0_pay3 k0_pay1 k0_pay7 k0_pay8 k0_pay9 k0_pay10 k0_pay11
  rw [pay4_eq, pay5_eq]
  rfl

/-- The third output block is the upper bound's function of the second and third input blocks. -/
theorem stored_u (x0 x1 x2 : Vec F S512x1024 .f32) : out0_5 x0 x1 x2 = Spu.uOut x1 x2 := by
  unfold out0_5
  rw [View.canon_unit_zero origin]
  simp only [View.ld_unit_zero (S := S512x1024) origin]
  unfold k0_pay2 k0_pay1 k0_pay7 k0_pay8 k0_pay9 k0_pay10 k0_pay11
  rw [pay4_eq, pay5_eq]
  rfl

/-! ## Where the blocks sit -/

/-- Every window's block at point `t` is row-block `t`, column-block `0`. -/
theorem block_index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] :=
  (by decide +kernel : ∀ t : Fin grid0.N, _)

/-- Every row-block is some point's. -/
theorem block_onto : ∀ q : Fin 32, ∃ t : Fin cfg0.N, t.val = q.val :=
  (by decide +kernel : ∀ q : Fin 32, ∃ t : Fin grid0.N, t.val = q.val)

/-! ## What each point writes back is its block of one whole-array function -/

/-- Point `t` writes back block `t` of SPU of the whole first input array: the input's block `t` and the output's
    block `t` cover the same rows. -/
theorem flushed_x (c : Dev nD) (t : Fin cfg0.N) :
    (dats m 0 c).flushed 3 t = ((cfg0.win 3).blk t).view.read (Elt F) (Spu.xOut (V m c main_v0)) := by
  show (cfg0.win 3).cut (grid0.coords t) ((dats m 0 c).after 3 t) = _
  rw [after0_3, stored_x]
  obtain ⟨e0, e1, e2, e3, e4, e5⟩ := block_index t
  funext j
  show Spu.spu (V m c main_v0 (((cfg0.win 0).blk t).view.emb j)) = Spu.spu (V m c main_v0 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; rw [e0, e3]
    | ⟨1, _⟩ => show win0_0.index t (1 : Fin 2) * 1024 + 1 * (j 1).val = win0_3.index t (1 : Fin 2) * 1024 + 1 * (j 1).val; rw [e0, e3]
  rw [h0]

/-- Point `t` writes back block `t` of the lower bound's function of the whole second and third input arrays. -/
theorem flushed_l (c : Dev nD) (t : Fin cfg0.N) :
    (dats m 0 c).flushed 4 t = ((cfg0.win 4).blk t).view.read (Elt F) (Spu.lOut (V m c main_v1) (V m c main_v2)) := by
  show (cfg0.win 4).cut (grid0.coords t) ((dats m 0 c).after 4 t) = _
  rw [after0_4, stored_l]
  obtain ⟨e0, e1, e2, e3, e4, e5⟩ := block_index t
  funext j
  show Spu.lower Spu.spu (V m c main_v1 (((cfg0.win 1).blk t).view.emb j)) (V m c main_v2 (((cfg0.win 2).blk t).view.emb j))
    = Spu.lower Spu.spu (V m c main_v1 (((cfg0.win 4).blk t).view.emb j)) (V m c main_v2 (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 512 + 1 * (j 0).val = win0_4.index t (0 : Fin 2) * 512 + 1 * (j 0).val; rw [e1, e4]
    | ⟨1, _⟩ => show win0_1.index t (1 : Fin 2) * 1024 + 1 * (j 1).val = win0_4.index t (1 : Fin 2) * 1024 + 1 * (j 1).val; rw [e1, e4]
  have h2 : ((cfg0.win 2).blk t).view.emb j = ((cfg0.win 4).blk t).view.emb j := by
    funext a; apply Fin.ext
    match a with
    | ⟨0, _⟩ => show win0_2.index t (0 : Fin 2) * 512 + 1 * (j 0).val = win0_4.index t (0 : Fin 2) * 512 + 1 * (j 0).val; rw [e2, e4]
    | ⟨1, _⟩ => show win0_2.index t (1 : Fin 2) * 1024 + 1 * (j 1).val = win0_4.index t (1 : Fin 2) * 1024 + 1 * (j 1).val; rw [e2, e4]
  rw [h1, h2]

/-- Point `t` writes back block `t` of the upper bound's function of the whole second and third input arrays. -/
theorem flushed_u (c : Dev nD) (t : Fin cfg0.N) :
    (dats m 0 c).flushed 5 t = ((cfg0.win 5).blk t).view.read (Elt F) (Spu.uOut (V m c main_v1) (V m c main_v2)) := by
  show (cfg0.win 5).cut (grid0.coords t) ((dats m 0 c).after 5 t) = _
  rw [after0_5, stored_u]
  obtain ⟨e0, e1, e2, e3, e4, e5⟩ := block_index t
  funext j
  show Spu.upper Spu.spu (V m c main_v1 (((cfg0.win 1).blk t).view.emb j)) (V m c main_v2 (((cfg0.win 2).blk t).view.emb j))
    = Spu.upper Spu.spu (V m c main_v1 (((cfg0.win 5).blk t).view.emb j)) (V m c main_v2 (((cfg0.win 5).blk t).view.emb j))
  have h1 : ((cfg0.win 1).blk t).view.emb j = ((cfg0.win 5).blk t).view.emb j := by
    funext a; apply Fin.ext
    match a with
    | ⟨0, _⟩ => show win0_1.index t (0 : Fin 2) * 512 + 1 * (j 0).val = win0_5.index t (0 : Fin 2) * 512 + 1 * (j 0).val; rw [e1, e5]
    | ⟨1, _⟩ => show win0_1.index t (1 : Fin 2) * 1024 + 1 * (j 1).val = win0_5.index t (1 : Fin 2) * 1024 + 1 * (j 1).val; rw [e1, e5]
  have h2 : ((cfg0.win 2).blk t).view.emb j = ((cfg0.win 5).blk t).view.emb j := by
    funext a; apply Fin.ext
    match a with
    | ⟨0, _⟩ => show win0_2.index t (0 : Fin 2) * 512 + 1 * (j 0).val = win0_5.index t (0 : Fin 2) * 512 + 1 * (j 0).val; rw [e2, e5]
    | ⟨1, _⟩ => show win0_2.index t (1 : Fin 2) * 1024 + 1 * (j 1).val = win0_5.index t (1 : Fin 2) * 1024 + 1 * (j 1).val; rw [e2, e5]
  rw [h1, h2]

/-! ## The blocks tile the arrays -/

/-- An index of an output array is in point `t`'s block iff each coordinate is in the block's range on its axis. -/
theorem mem_blk_x (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_0).slice (win0_3.rect t)).set ↔ _
  rw [View.set_slice_whole, Rect.mem_set_unit]
  exact Iff.rfl
theorem mem_blk_l (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_1).slice (win0_4.rect t)).set ↔ _
  rw [View.set_slice_whole, Rect.mem_set_unit]
  exact Iff.rfl
theorem mem_blk_u (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3_2).slice (win0_5.rect t)).set ↔ _
  rw [View.set_slice_whole, Rect.mem_set_unit]
  exact Iff.rfl

/-- Row `r` lies in the block of point `r / 512`: every index of an output array is covered. -/
theorem cover_x (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := block_onto ⟨(i 0).val / 512, by omega⟩
  have ht' : t.val = (i 0).val / 512 := ht
  obtain ⟨e0, e1, e2, e3, e4, e5⟩ := block_index t
  refine ⟨t, flush0_3 t, ?_⟩
  rw [mem_blk_x]
  intro a
  match a with
  | ⟨0, _⟩ => show win0_3.index t (0 : Fin 2) * 512 ≤ (i 0).val ∧ (i 0).val < win0_3.index t (0 : Fin 2) * 512 + 512; rw [e3]; show t.val * 512 ≤ _ ∧ _ < t.val * 512 + 512; omega
  | ⟨1, _⟩ => show win0_3.index t (1 : Fin 2) * 1024 ≤ (i 1).val ∧ (i 1).val < win0_3.index t (1 : Fin 2) * 1024 + 1024; rw [e3]; show 0 * 1024 ≤ _ ∧ _ < 0 * 1024 + 1024; omega
theorem cover_l (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := block_onto ⟨(i 0).val / 512, by omega⟩
  have ht' : t.val = (i 0).val / 512 := ht
  obtain ⟨e0, e1, e2, e3, e4, e5⟩ := block_index t
  refine ⟨t, flush0_4 t, ?_⟩
  rw [mem_blk_l]
  intro a
  match a with
  | ⟨0, _⟩ => show win0_4.index t (0 : Fin 2) * 512 ≤ (i 0).val ∧ (i 0).val < win0_4.index t (0 : Fin 2) * 512 + 512; rw [e4]; show t.val * 512 ≤ _ ∧ _ < t.val * 512 + 512; omega
  | ⟨1, _⟩ => show win0_4.index t (1 : Fin 2) * 1024 ≤ (i 1).val ∧ (i 1).val < win0_4.index t (1 : Fin 2) * 1024 + 1024; rw [e4]; show 0 * 1024 ≤ _ ∧ _ < 0 * 1024 + 1024; omega
theorem cover_u (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := block_onto ⟨(i 0).val / 512, by omega⟩
  have ht' : t.val = (i 0).val / 512 := ht
  obtain ⟨e0, e1, e2, e3, e4, e5⟩ := block_index t
  refine ⟨t, flush0_5 t, ?_⟩
  rw [mem_blk_u]
  intro a
  match a with
  | ⟨0, _⟩ => show win0_5.index t (0 : Fin 2) * 512 ≤ (i 0).val ∧ (i 0).val < win0_5.index t (0 : Fin 2) * 512 + 512; rw [e5]; show t.val * 512 ≤ _ ∧ _ < t.val * 512 + 512; omega
  | ⟨1, _⟩ => show win0_5.index t (1 : Fin 2) * 1024 ≤ (i 1).val ∧ (i 1).val < win0_5.index t (1 : Fin 2) * 1024 + 1024; rw [e5]; show 0 * 1024 ≤ _ ∧ _ < 0 * 1024 + 1024; omega

/-! ## The output arrays after the last point -/

/-- The first output array is SPU of the whole first input array as the region finds it. -/
theorem final_x (c : Dev nD) : (dats m 0 c).arrAt 3 cfg0.N = Spu.xOut (V m c main_v0) :=
  (dats m 0 c).arrAt_eq_of_cover 3 _ (fun t _ => flushed_x m c t) cover_x
/-- The second output array is the lower bound's function of the whole second and third input arrays. -/
theorem final_l (c : Dev nD) : (dats m 0 c).arrAt 4 cfg0.N = Spu.lOut (V m c main_v1) (V m c main_v2) :=
  (dats m 0 c).arrAt_eq_of_cover 4 _ (fun t _ => flushed_l m c t) cover_l
/-- The third output array is the upper bound's function of the whole second and third input arrays. -/
theorem final_u (c : Dev nD) : (dats m 0 c).arrAt 5 cfg0.N = Spu.uOut (V m c main_v1) (V m c main_v2) :=
  (dats m 0 c).arrAt_eq_of_cover 5 _ (fun t _ => flushed_u m c t) cover_u

end Cert.KernelIdeal.Blocks

end
-- ==== Proof.KernelWhole.lean ====
/-
  The whole kernel program: the re-layout before the region, the region, the re-layout after it.

  Each [1, 16777216] argument is re-laid row-major as [16384, 1024] before the region, and each [16384, 1024] output
  of the region is re-laid back as [1, 16777216] after it. An elementwise function commutes with a re-layout, and
  re-laying there and back is the identity, so each result is the elementwise function of the arguments themselves.
-/
import proofs.«152548_j23785528885334_2_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arrays the region finds -/

/-- The region's first input is the first argument re-laid as [16384, 1024]. -/
theorem entry_x (c : Dev nD) : (V m c main_v0 : S16384x1024.Idx → F .f32)
    = shapeCast S16384x1024 (m ((c : Thread nD τ).loc main_arg0)) shapeCasts_S1x16777216_S16384x1024 := by
  show StableHlo.after hostOps0 (fun b => m (c, b)) (Proc.devRef .tc main_v0) = _
  after_results
  rfl
/-- The region's second input is the second argument re-laid as [16384, 1024]. -/
theorem entry_l (c : Dev nD) : (V m c main_v1 : S16384x1024.Idx → F .f32)
    = shapeCast S16384x1024 (m ((c : Thread nD τ).loc main_arg1)) shapeCasts_S1x16777216_S16384x1024 := by
  show StableHlo.after hostOps0 (fun b => m (c, b)) (Proc.devRef .tc main_v1) = _
  after_results
  rfl
/-- The region's third input is the third argument re-laid as [16384, 1024]. -/
theorem entry_u (c : Dev nD) : (V m c main_v2 : S16384x1024.Idx → F .f32)
    = shapeCast S16384x1024 (m ((c : Thread nD τ).loc main_arg2)) shapeCasts_S1x16777216_S16384x1024 := by
  show StableHlo.after hostOps0 (fun b => m (c, b)) (Proc.devRef .tc main_v2) = _
  after_results
  rfl

/-! ## The results after the last re-layout -/

/-- The first result is SPU of the first argument, element by element. -/
theorem tail_x (c : Dev nD) : Pipeline.afterTail₀ cfgs (dats m) 0 (V0 m) [hostOps1] c main_v4
    = Spu.xOut (m ((c : Thread nD τ).loc main_arg0)) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v3_0)
      = Spu.xOut (shapeCast S16384x1024 (m ((c : Thread nD τ).loc main_arg0)) shapeCasts_S1x16777216_S16384x1024) :=
    ((Pipeline.withArrays_arr spec0 launch0.win.arr_inj c _ _ 3).trans (Blocks.final_x m c)).trans
      (congrArg Spu.xOut (entry_x m c))
  rw [hW]
  show shapeCast S1x16777216 (Spu.xOut (shapeCast S16384x1024 (m ((c : Thread nD τ).loc main_arg0)) shapeCasts_S1x16777216_S16384x1024)) shapeCasts_S16384x1024_S1x16777216 = _
  rw [Spu.shapeCast_xOut, shapeCast_shapeCast]

/-- The second result is the lower bound's function of the second and third arguments. -/
theorem tail_l (c : Dev nD) : Pipeline.afterTail₀ cfgs (dats m) 0 (V0 m) [hostOps1] c main_v5
    = Spu.lOut (m ((c : Thread nD τ).loc main_arg1)) (m ((c : Thread nD τ).loc main_arg2)) := by
  unfold Pipeline.afterTail₀
  show StableHlo.after hostOps1 _ (Proc.devRef .tc main_v5) = _
  after_results
  have hW : Pipeline.withArrays (cfgs 0).spec c (V0 m c) (fun w => (dats m 0 c).arrAt w (cfgs 0).N) (Proc.devRef .tc main_v3_1)
      = Spu.lOut (shapeCast S16384x1024 (m ((c : Thread nD τ).loc main_arg1)) shapeCasts_S1x16777216_S16384x1024)
          (shapeCast S16384x1024 (m ((c : Thread nD τ).loc main_arg2)) shapeCasts_S1x16777216_S16384x1024) :=
    ((Pipeline.withArrays_arr spec0 launch0.win.arr_inj c _ _ 4).trans (Blocks.final_l m c)).trans
      (congrArg₂ Spu.lOut (entry_l m c) (entry_u m c))
  rw [hW]
  show shapeCast S1x16777216 (Spu.lOut (shapeCast S16384x1024 (m ((c : Thread nD τ).loc main_arg1)) shapeCasts_S1x16777216_S16384x1024)
      (shapeCast S16384x1024 (m ((c : Thread nD τ).loc main_arg2)) shapeCasts_S1x16777216_S16384x1024)) shapeCasts_S16384x1024_S1x16777216 = _
  rw [Spu.shapeCast_lOut, shapeCast_shapeCast, shapeCast_shapeCast]

/-- The third result is the upper bound's function of the second and third arguments. -/
theorem tail_u (c : Dev nD) : Pipeline.afterTail₀ cfgs (dats m) 0 (V0 m) [hostOps1] c main_v6
    = Spu.uOut (m ((c : Thread nD τ).loc main_arg1)) (m ((c : Thread nD τ).loc main_arg2)) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.devRef .tc main_v3_2)
      = Spu.uOut (shapeCast S16384x1024 (m ((c : Thread nD τ).loc main_arg1)) shapeCasts_S1x16777216_S16384x1024)
          (shapeCast S16384x1024 (m ((c : Thread nD τ).loc main_arg2)) shapeCasts_S1x16777216_S16384x1024) :=
    ((Pipeline.withArrays_arr spec0 launch0.win.arr_inj c _ _ 5).trans (Blocks.final_u m c)).trans
      (congrArg₂ Spu.uOut (entry_l m c) (entry_u m c))
  rw [hW]
  show shapeCast S1x16777216 (Spu.uOut (shapeCast S16384x1024 (m ((c : Thread nD τ).loc main_arg1)) shapeCasts_S1x16777216_S16384x1024)
      (shapeCast S16384x1024 (m ((c : Thread nD τ).loc main_arg2)) shapeCasts_S1x16777216_S16384x1024)) shapeCasts_S16384x1024_S1x16777216 = _
  rw [Spu.shapeCast_uOut, shapeCast_shapeCast, shapeCast_shapeCast]

/-! ## The run, read -/

/-- Every weakly fair execution of the program ends with the three results at the elementwise functions of the
    arguments, and the arguments unchanged. -/
theorem run : θ_run defs (onTc (τ := τ) (main (F := F))) ⟨m, fun _ => 0, ρ⟩ fun r => ∀ c : Dev nD,
      r.2.mem ((c : Thread nD τ).loc main_v4) = Spu.xOut (m ((c : Thread nD τ).loc main_arg0))
      ∧ r.2.mem ((c : Thread nD τ).loc main_v5) = Spu.lOut (m ((c : Thread nD τ).loc main_arg1)) (m ((c : Thread nD τ).loc main_arg2))
      ∧ r.2.mem ((c : Thread nD τ).loc main_v6) = Spu.uOut (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v4 (Pipeline.mem_restRefs_of main_v4 (by decide) (by decide))).trans (tail_x m c),
      ((h c).2 main_v5 (Pipeline.mem_restRefs_of main_v5 (by decide) (by decide))).trans (tail_l m c),
      ((h c).2 main_v6 (Pipeline.mem_restRefs_of main_v6 (by decide) (by decide))).trans (tail_u m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference's three results as elementwise functions of its arguments.

  Stage by stage the reference computes, at every element, SPU in the quotient spelling `1 / (1 + exp(−(−v)))` and
  then selects between SPU of the lower bound, SPU of the upper bound and the constant −1/2 by the signs of the
  bounds. On the extended reals the quotient spelling is the logistic spelling, so the results are the same
  elementwise functions that describe the kernel.
-/
import proofs.«152548_j23785528885334_2_alg».proof.Proof.Gen.ReferenceIdeal.Read
import proofs.«152548_j23785528885334_2_alg».proof.Proof.SpuSpec

noncomputable section

namespace Cert.ReferenceIdeal.RefValue

open Cert.ReferenceIdeal Cert.ReferenceIdeal.Read Idealize.ShloMosaic

/-- On the extended reals the two spellings of SPU are one function. -/
theorem spuHost_fun : (Spu.spuHost : Ideal .f32 → Ideal .f32) = Spu.spu := funext Spu.spuHost_eq_spu

/-- The first result is SPU of the first argument, element by element. -/
theorem result_x (x0 : FVec Ideal S1x16777216 .f32) : val_main_v14 (F := Ideal) x0 = Spu.xOut x0 := by
  funext i
  show Spu.spuHost (x0 i) = Spu.spu (x0 i)
  rw [spuHost_fun]

/-- The second result is the lower bound's function of the second and third arguments. -/
theorem result_l (x1 x2 : FVec Ideal S1x16777216 .f32) : val_main_v53 (F := Ideal) x1 x2 = Spu.lOut x1 x2 := by
  funext i
  show Spu.lower Spu.spuHost (x1 i) (x2 i) = Spu.lower Spu.spu (x1 i) (x2 i)
  rw [spuHost_fun]

/-- The third result is the upper bound's function of the second and third arguments. -/
theorem result_u (x1 x2 : FVec Ideal S1x16777216 .f32) : val_main_v47 (F := Ideal) x1 x2 = Spu.uOut x1 x2 := by
  funext i
  show Spu.upper Spu.spuHost (x1 i) (x2 i) = Spu.upper Spu.spu (x1 i) (x2 i)
  rw [spuHost_fun]

end Cert.ReferenceIdeal.RefValue

end
-- ==== Proof.lean ====
/-
  The kernel and its reference compute the same three arrays on the extended reals.

  Both apply, at every element, SPU(v) = v² − 1/2 for v ≥ 0 and σ(−v) − 1 for v < 0, and select between SPU of the
  lower bound, SPU of the upper bound and −1/2 by the signs of the bounds. They differ in two ways only. The kernel
  works on the arguments re-laid as [16384, 1024] and cut into 32 blocks of 512 rows, and re-lays its outputs back;
  an elementwise function is blind to both. And the kernel takes σ as one logistic operation of 0 − v where the
  reference takes the quotient 1 / (1 + exp(−(−v))); on the extended reals these are one function of v, at ±∞ too.
  So no use is made of the inputs being finite.

  SpuSpec states the elementwise functions and the law joining the two spellings; KernelBlocks reads the region
  block by block and then as whole arrays; KernelWhole adds the re-layouts around it; RefValue reads the reference.
  The ideal pass rewrote nothing, so the kernel's idealization claim is trivial.
-/
import proofs.«152548_j23785528885334_2_alg».proof.Defs
import proofs.«152548_j23785528885334_2_alg».proof.Proof.Gen.Kernel
import proofs.«152548_j23785528885334_2_alg».proof.Proof.Gen.Kernel.Skeleton
import proofs.«152548_j23785528885334_2_alg».proof.Proof.Gen.Kernel.Launch
import proofs.«152548_j23785528885334_2_alg».proof.Proof.Gen.Kernel.Points
import proofs.«152548_j23785528885334_2_alg».proof.Proof.Gen.Kernel.Frame
import proofs.«152548_j23785528885334_2_alg».proof.Proof.Gen.KernelIdeal
import proofs.«152548_j23785528885334_2_alg».proof.Proof.Gen.KernelIdeal.Skeleton
import proofs.«152548_j23785528885334_2_alg».proof.Proof.Gen.KernelIdeal.Launch
import proofs.«152548_j23785528885334_2_alg».proof.Proof.Gen.KernelIdeal.Points
import proofs.«152548_j23785528885334_2_alg».proof.Proof.Gen.KernelIdeal.Frame
import proofs.«152548_j23785528885334_2_alg».proof.Proof.Gen.ReferenceIdeal
import proofs.«152548_j23785528885334_2_alg».proof.Proof.Gen.ReferenceIdeal.Run
import proofs.«152548_j23785528885334_2_alg».proof.Proof.Gen.ReferenceIdeal.Read
import proofs.«152548_j23785528885334_2_alg».proof.Proof.Gen.Pre_finite_inputs
import proofs.«152548_j23785528885334_2_alg».proof.Proof.SpuSpec
import proofs.«152548_j23785528885334_2_alg».proof.Proof.KernelBlocks
import proofs.«152548_j23785528885334_2_alg».proof.Proof.KernelWhole
import proofs.«152548_j23785528885334_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From arguments that agree, both programs end with the three results at the same elementwise functions of the
    arguments: SPU of the first, and the lower and the upper bound's functions of the second and third. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Whole.run (F := Ideal) m ρ, ?_⟩
  refine (θ_run Cert.ReferenceIdeal.defs _ _).mono (fun _ h c =>
      ⟨(h c).1.trans ?_, (h c).2.1.trans ?_, (h c).2.2.1.trans ?_, (h c).2.2.2⟩)
    (Cert.ReferenceIdeal.Value.run (F := Ideal) m' ρ')
  · rw [Cert.ReferenceIdeal.Read.val_main_v14_eq, Cert.ReferenceIdeal.RefValue.result_x, (hagree c).1]
  · rw [Cert.ReferenceIdeal.Read.val_main_v53_eq, Cert.ReferenceIdeal.RefValue.result_l, (hagree c).2.1, (hagree c).2.2]
  · rw [Cert.ReferenceIdeal.Read.val_main_v47_eq, Cert.ReferenceIdeal.RefValue.result_u, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
